-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x128x256x256 : Shape := ⟨5, ![4, 1, 128, 256, 256]⟩
abbrev S_ : Shape := ⟨0, ![]⟩

class Facts : Prop where
  bcast_S_S4x1x128x256x256 : S_.BroadcastsInDim S4x1x128x256x256 (![] : Fin 0 → Fin S4x1x128x256x256.rank)
  reducesTo_S4x1x128x256x256_S_d0_1_2_3_4 : S4x1x128x256x256.ReducesTo [0, 1, 2, 3, 4] S_
  h_S_ : 0 < S_.numel

variable [Facts]

def fn {F : FTy → Type} [FloatOps F] (main_arg0 : FVec F S4x1x128x256x256 .f32) (main_arg1 : FVec F S4x1x128x256x256 .f32) : IVec S_ 1 :=
  let main_v0 : FVec F S4x1x128x256x256 .f32 := Host.absf main_arg0
  let main_cst : FVec F S_ .f32 := constant S_ .f32 0x7F800000#32
  let main_v1 : FVec F S4x1x128x256x256 .f32 := broadcastInDim S4x1x128x256x256 ![] bcast_S_S4x1x128x256x256 main_cst
  let main_v2 : IVec S4x1x128x256x256 1 := cmpf .olt main_v0 main_v1
  let main_c : IVec S_ 1 := constantI S_ 1 1#1
  let main_v3 : IVec S_ 1 := (fun x v => Host.reduce IntOp.andi x v reducesTo_S4x1x128x256x256_S_d0_1_2_3_4 h_S_) main_v2 main_c
  let main_v4 : FVec F S4x1x128x256x256 .f32 := Host.absf main_arg1
  let main_cst_0 : FVec F S_ .f32 := constant S_ .f32 0x7F800000#32
  let main_v5 : FVec F S4x1x128x256x256 .f32 := broadcastInDim S4x1x128x256x256 ![] bcast_S_S4x1x128x256x256 main_cst_0
  let main_v6 : IVec S4x1x128x256x256 1 := cmpf .olt main_v4 main_v5
  let main_c_1 : IVec S_ 1 := constantI S_ 1 1#1
  let main_v7 : IVec S_ 1 := (fun x v => Host.reduce IntOp.andi x v reducesTo_S4x1x128x256x256_S_d0_1_2_3_4 h_S_) main_v6 main_c_1
  let main_v8 : IVec S_ 1 := andi main_v3 main_v7
  main_v8
-- ==== Kernel.lean ====
abbrev S4x1x128x256x256 : Shape := ⟨5, ![4, 1, 128, 256, 256]⟩
abbrev S131072x256 : Shape := ⟨2, ![131072, 256]⟩
abbrev S2x8x128 : Shape := ⟨3, ![2, 8, 128]⟩
abbrev S4096x256 : Shape := ⟨2, ![4096, 256]⟩
abbrev S1x8x128 : Shape := ⟨3, ![1, 8, 128]⟩
abbrev S8x128 : Shape := ⟨2, ![8, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S4x1x128x256x256, .f32⟩
  | .hbm, ⟨1, _⟩ => ⟨S4x1x128x256x256, .f32⟩
  | .hbm, ⟨2, _⟩ => ⟨S131072x256, .f32⟩
  | .hbm, ⟨3, _⟩ => ⟨S131072x256, .f32⟩
  | .hbm, ⟨4, _⟩ => ⟨S2x8x128, .f32⟩
  | .hbm, ⟨5, _⟩ => ⟨S_, .f32⟩
  | .hbm, ⟨6, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S1x8x128, .f32⟩
  | .local _ .vmem, ⟨5, _⟩ => ⟨S1x8x128, .f32⟩
  | _, _ => ⟨S4x1x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x1x128x256x256_S131072x256 : S4x1x128x256x256.ShapeCasts S131072x256
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  iota_S8x128_d0_w32 : S8x128.Iotas .tc 32 [0]
  iota_S8x128_d1_w32 : S8x128.Iotas .tc 32 [1]
  inpos_S1x1_p0_0 : ∀ a, (![0, 0] : Fin 2 → Nat) a < S1x1.size a
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1x128x256x256 : Shape := ⟨5, ![4, 1, 128, 256, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1x128x256x256, .f32⟩
  | .hbm, ⟨1, _⟩ => ⟨S4x1x128x256x256, .f32⟩
  | .hbm, ⟨2, _⟩ => ⟨S4x1x128x256x256, .f32⟩
  | .hbm, ⟨3, _⟩ => ⟨S_, .f32⟩
  | .hbm, ⟨4, _⟩ => ⟨S4x1x128x256x256, .f32⟩
  | .hbm, ⟨5, _⟩ => ⟨S4x1x128x256x256, .f32⟩
  | .hbm, ⟨6, _⟩ => ⟨S4x1x128x256x256, .f32⟩
  | .hbm, ⟨7, _⟩ => ⟨S4x1x128x256x256, .f32⟩
  | .hbm, ⟨8, _⟩ => ⟨S4x1x128x256x256, .i1⟩
  | .hbm, ⟨9, _⟩ => ⟨S4x1x128x256x256, .f32⟩
  | .hbm, ⟨10, _⟩ => ⟨S4x1x128x256x256, .f32⟩
  | .hbm, ⟨11, _⟩ => ⟨S4x1x128x256x256, .f32⟩
  | .hbm, ⟨12, _⟩ => ⟨S4x1x128x256x256, .f32⟩
  | .hbm, ⟨13, _⟩ => ⟨S4x1x128x256x256, .f32⟩
  | .hbm, ⟨14, _⟩ => ⟨S4x1x128x256x256, .f32⟩
  | .hbm, ⟨15, _⟩ => ⟨S4x1x128x256x256, .f32⟩
  | .hbm, ⟨16, _⟩ => ⟨S4x1x128x256x256, .f32⟩
  | .hbm, ⟨17, _⟩ => ⟨S4x1x128x256x256, .f32⟩
  | .hbm, ⟨18, _⟩ => ⟨S_, .f32⟩
  | .hbm, ⟨19, _⟩ => ⟨S4x1x128x256x256, .f32⟩
  | .hbm, ⟨20, _⟩ => ⟨S4x1x128x256x256, .f32⟩
  | .hbm, ⟨21, _⟩ => ⟨S_, .f32⟩
  | .hbm, ⟨22, _⟩ => ⟨S4x1x128x256x256, .f32⟩
  | .hbm, ⟨23, _⟩ => ⟨S4x1x128x256x256, .f32⟩
  | .hbm, ⟨24, _⟩ => ⟨S4x1x128x256x256, .f32⟩
  | .hbm, ⟨25, _⟩ => ⟨S4x1x128x256x256, .f32⟩
  | .hbm, ⟨26, _⟩ => ⟨S4x1x128x256x256, .i1⟩
  | .hbm, ⟨27, _⟩ => ⟨S4x1x128x256x256, .f32⟩
  | .hbm, ⟨28, _⟩ => ⟨S4x1x128x256x256, .f32⟩
  | .hbm, ⟨29, _⟩ => ⟨S4x1x128x256x256, .f32⟩
  | .hbm, ⟨30, _⟩ => ⟨S4x1x128x256x256, .f32⟩
  | .hbm, ⟨31, _⟩ => ⟨S4x1x128x256x256, .f32⟩
  | .hbm, ⟨32, _⟩ => ⟨S4x1x128x256x256, .f32⟩
  | .hbm, ⟨33, _⟩ => ⟨S4x1x128x256x256, .f32⟩
  | .hbm, ⟨34, _⟩ => ⟨S4x1x128x256x256, .f32⟩
  | .hbm, ⟨35, _⟩ => ⟨S4x1x128x256x256, .f32⟩
  | .hbm, ⟨36, _⟩ => ⟨S4x1x128x256x256, .f32⟩
  | .hbm, ⟨37, _⟩ => ⟨S_, .f32⟩
  | .hbm, ⟨38, _⟩ => ⟨S_, .f32⟩
  | _, _ => ⟨S4x1x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_call1_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩

abbrev nD : Nat := 1
abbrev τ : Topo := Topo.v7x

variable {F : FTy → Type} [FloatOps F]

class Facts₀ : Prop where
  bcast_S_S4x1x128x256x256 : S_.BroadcastsInDim S4x1x128x256x256 (![] : Fin 0 → Fin S4x1x128x256x256.rank)
  reducesTo_S4x1x128x256x256_S_d0_1_2_3_4 : S4x1x128x256x256.ReducesTo [0, 1, 2, 3, 4] S_
  h_S_ : 0 < S_.numel

variable [Facts₀]

class Facts : Prop extends Facts₀ where

variable [Facts]
-- ==== Proof.Loss.lean ====
/-
  The loss term of one voxel, as each program spells it, over any float instance.

  With `sp x = max x 0 + log (1 + exp (-|x|))` (the stable form of `log (1 + exp x)`):
  * the kernel's term is `sp p - l * p`;
  * the reference's term is `l * sp (-p) + (1 - l) * sp p`.
  Both guard `sp` by a test `x ≠ x` (true of a NaN only), which selects `x + 0` instead; on the
  extended reals the test is never true.
-/
import Idealize.ShloMosaic.PureOps

noncomputable section

namespace Cert.Bce

open Idealize.ShloMosaic

variable {F : FTy → Type} [FloatOps F]

/-- `sp p` as the kernel computes it: `|p|` is negated as `0 - |p|`, the guard is the ordered `≠`. -/
def spK (p : F .f32) : F .f32 :=
  Scalar.select
    (FloatOps.cmpf .one (FloatOps.subf p (FloatOps.ofBits .f32 0x00000000#32)) (FloatOps.subf p (FloatOps.ofBits .f32 0x00000000#32)))
    (FloatOps.addf p (FloatOps.ofBits .f32 0x00000000#32))
    (FloatOps.addf (FloatOps.maximumf p (FloatOps.ofBits .f32 0x00000000#32))
      (FloatOps.log1p (FloatOps.exp (FloatOps.subf (FloatOps.ofBits .f32 0x00000000#32)
        (FloatOps.absf (FloatOps.subf p (FloatOps.ofBits .f32 0x00000000#32)))))))

/-- The kernel's term at a voxel with logit `p` and label `l`: `sp p - l * p`. -/
def lossK (p l : F .f32) : F .f32 := FloatOps.subf (spK p) (FloatOps.mulf l p)

/-- `sp x` as the reference computes it: the host's `abs`, `negate`, `exp`, `log1p`, the guard the unordered `≠`. -/
def spR (x : F .f32) : F .f32 :=
  Scalar.select
    (FloatOps.cmpf .une (FloatOps.subf x (FloatOps.ofBits .f32 0x00000000#32)) (FloatOps.subf x (FloatOps.ofBits .f32 0x00000000#32)))
    (FloatOps.addf x (FloatOps.ofBits .f32 0x00000000#32))
    (FloatOps.addf (FloatOps.maximumf x (FloatOps.ofBits .f32 0x00000000#32))
      (FloatOps.hostUnary .log1p (FloatOps.hostUnary .exp (FloatOps.hostNegf
        (FloatOps.hostAbsf (FloatOps.subf x (FloatOps.ofBits .f32 0x00000000#32)))))))

/-- The reference's term: `l * sp (-p) + (1 - l) * sp p`. -/
def lossR (p l : F .f32) : F .f32 :=
  FloatOps.addf (FloatOps.mulf l (spR (FloatOps.hostNegf p)))
    (FloatOps.mulf (FloatOps.subf (FloatOps.ofBits .f32 0x3F800000#32) l) (spR p))

end Cert.Bce

end
-- ==== Proof.KernelPayload.lean ====
/-
  The kernel body's arithmetic at one grid point, read at the ideal instance.

  The body loads a block `x0` of logits and a block `x1` of labels (4096 rows of 256 lanes each), forms the
  loss term of every voxel, sums each row over its lanes, sums the rows, and adds the total into entry (0, 0)
  of its 8 × 128 accumulator tile (every other entry gets `+ 0`).
-/
import proofs.«155113_j11716670783835_2_alg».proof.Proof.Gen.KernelIdeal.Skeleton
import proofs.«155113_j11716670783835_2_alg».proof.Proof.Loss
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.ValueIdx

namespace Cert.KernelIdeal.BodyValue

open Cert.KernelIdeal Cert.KernelIdeal.Gen Cert.Bce

/-- The sum of a block's loss terms: over its 4096 rows, over the 256 lanes of each row. -/
def blockSum (x0 x1 : FVec Ideal S4096x256 .f32) : EReal :=
  ∑ r : Fin 4096, ∑ q : Fin 256, lossK (F := Ideal) (x0 (ix2 r q)) (x1 (ix2 r q))

/-- Lane sums, then the sum of the rows, read off the 1 × 1 result: the double sum of the vector's entries. -/
theorem total_eq (v : FVec Ideal S4096x256 .f32) :
    extractAt ![0, 0] (shapeCast S1x1 (multiReduction .add [0] S1 (shapeCast S4096x1
        (multiReduction .add [1] S4096 v 0x00000000#32 reduces_S4096x256_S4096 (.inl rfl) rfl) shapeCasts_S4096_S4096x1)
        0x00000000#32 reduces_S4096x1_S1 (.inl rfl) rfl) shapeCasts_S1_S1x1) inpos_S1x1_p0_0
      = ∑ r : Fin 4096, ∑ q : Fin 256, v (ix2 r q) := by
  unfold extractAt
  refine (shapeCast_apply _ shapeCasts_S1_S1x1 _ (ix1 (0 : Fin 1)) ?_).trans ?_
  · rw [Shape.rowMajor_val_one, Shape.rowMajor_val_two]; rfl
  refine (Ideal.multiReduction_add_single _ 0x00000000#32 reduces_S4096x1_S1 (.inl rfl) rfl (ix1 (0 : Fin 1))).trans ?_
  show ∑ r : Fin 4096, _ = _
  refine Finset.sum_congr rfl fun r _ => ?_
  refine (shapeCast_apply _ shapeCasts_S4096_S4096x1 _ (ix1 r) ?_).trans ?_
  · rw [Shape.rowMajor_val_one, Shape.rowMajor_val_two]
    show r.val = r.val * 1 + 0
    omega
  refine (Ideal.multiReduction_add_single v 0x00000000#32 reduces_S4096x256_S4096 (.inl rfl) rfl (ix1 r)).trans ?_
  show ∑ q : Fin 256, _ = _
  refine Finset.sum_congr rfl fun q _ => ?_
  refine congrArg v ?_
  funext a
  match a with
  | ⟨0, _⟩ => rfl
  | ⟨1, _⟩ => rfl

/-- The mask the body builds from the tile's two coordinate arrays selects entry (0, 0) and nothing else. -/
theorem mask_iff : ∀ (a : Fin 8) (b : Fin 128),
    (IntOp.andi (IntOp.cmpi .eq (BitVec.ofNat 32 a.val) 0#32) (IntOp.cmpi .eq (BitVec.ofNat 32 b.val) 0#32) = 1#1)
      ↔ (a.val = 0 ∧ b.val = 0) := by
  decide +kernel

theorem add_congr' {a a' b b' : EReal} (h1 : a = a') (h2 : b = b') : a + b = a' + b' := by rw [h1, h2]

/-- The body's new accumulator tile at entry (a, b): the old tile's entry, plus the block's sum at (0, 0) and zero
    elsewhere. -/
theorem pay3_apply (x0 x1 : FVec Ideal S4096x256 .f32) (xo : FVec Ideal S1x8x128 .f32) (a : Fin 8) (b : Fin 128) :
    k0_pay3 (F := Ideal) x0 x1 xo (ix2 a b)
      = xo (ix3 (0 : Fin 1) a b) + (if a.val = 0 ∧ b.val = 0 then blockSum x0 x1 else 0) := by
  unfold k0_pay3
  refine add_congr' ?_ ?_
  · exact shapeCast_1ab_ab_apply xo shapeCasts_S1x8x128_S8x128 a b
  · show Scalar.select (IntOp.andi (IntOp.cmpi .eq (iota .tc S8x128 32 [0] iota_S8x128_d0_w32 (ix2 a b)) 0#32)
        (IntOp.cmpi .eq (iota .tc S8x128 32 [1] iota_S8x128_d1_w32 (ix2 a b)) 0#32)) _ _ = _
    rw [iota_single_apply, iota_single_apply]
    show Scalar.select (IntOp.andi (IntOp.cmpi .eq (BitVec.ofNat 32 a.val) 0#32) (IntOp.cmpi .eq (BitVec.ofNat 32 b.val) 0#32)) _ _ = _
    by_cases hab : a.val = 0 ∧ b.val = 0
    · rw [(mask_iff a b).mpr hab, select_one, if_pos hab]
      refine (total_eq _).trans ?_
      unfold blockSum
      refine Finset.sum_congr rfl fun r _ => Finset.sum_congr rfl fun q _ => ?_
      rw [shapeCast_self x0 _, shapeCast_self x1 _]
      rfl
    · rw [eq_zero_of_ne_one (fun h => hab ((mask_iff a b).mp h)), select_zero, if_neg hab]
      exact Ideal.ofBits_zero_f32

end Cert.KernelIdeal.BodyValue

end
-- ==== Proof.Accum.lean ====
/-
  Finite sums in an additive commutative monoid: an accumulator over 32 points in two groups of
  16, and an array of two tiles that are zero off one entry.

  * The accumulator is reset at the first point of each group of 16 and then adds one term per
    point, so after point `n` it holds the terms of `n`'s group up to `n`:
    `∑ i < n % 16 + 1, bs (n - n % 16 + i)`. After point 15 it holds the first 16 terms, after point
    31 the last 16, and the two together are all 32.
  * A `2 × 8 × 128` array whose tile `k` is `g k` at entry `(0, 0)` and zero elsewhere sums to
    `g 0 + g 1`.
-/
import Idealize.ShloMosaic.PureOps
import Idealize.ShloMosaic.Lib.ValueIdx

noncomputable section

open scoped BigOperators

namespace Cert.Bce

open Idealize.ShloMosaic Idealize.ShloMosaic.ValueIdx

/-- The accumulator after point n: reset at the points divisible by 16. -/
def runSum {M : Type*} [AddCommMonoid M] (bs : ℕ → M) : ℕ → M
  | 0 => bs 0
  | n + 1 => if (n + 1) % 16 = 0 then bs (n + 1) else runSum bs n + bs (n + 1)

/-- Closed form: after point `n` the accumulator is the sum of the terms from the start of `n`'s
    group of 16, `n - n % 16`, up to `n`. By induction: at a multiple of 16 the group starts anew;
    otherwise `(n + 1) % 16 = n % 16 + 1`, the group's start is unchanged and one term is added. -/
theorem runSum_closed {M : Type*} [AddCommMonoid M] (bs : ℕ → M) (n : ℕ) :
    runSum bs n = ∑ i ∈ Finset.range (n % 16 + 1), bs (n - n % 16 + i) := by
  induction n with
  | zero => simp [runSum]
  | succ n ih =>
    rw [runSum]
    by_cases h : (n + 1) % 16 = 0
    · rw [if_pos h, h]; simp
    · rw [if_neg h, ih]
      have h1 : (n + 1) % 16 = n % 16 + 1 := by omega
      have h2 : n + 1 - (n % 16 + 1) = n - n % 16 := by omega
      have h3 : n - n % 16 + (n % 16 + 1) = n + 1 := by omega
      rw [h1, h2, Finset.sum_range_succ (fun i => bs (n - n % 16 + i)) (n % 16 + 1), h3]

/-- The accumulator after the last point of the first group plus the accumulator after the last
    point of the second group is the sum of all 32 terms. -/
theorem runSum_total {M : Type*} [AddCommMonoid M] (bs : ℕ → M) :
    runSum bs 15 + runSum bs 31 = ∑ t : Fin 32, bs t.val := by
  have e15 : runSum bs 15 = ∑ i ∈ Finset.range 16, bs i := by
    rw [runSum_closed]; simp
  have e31 : runSum bs 31 = ∑ i ∈ Finset.range 16, bs (16 + i) := by
    rw [runSum_closed]
  rw [e15, e31, Fin.sum_univ_eq_sum_range (fun i => bs i) 32, ← Finset.sum_range_add]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat}
    (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Two `8 × 128` tiles, tile `k` equal to `g k` at entry `(0, 0)` and zero elsewhere, sum to
    `g 0 + g 1`: in each tile only the row `0` and in it only the column `0` contribute. -/
theorem sum_tile {M : Type*} [AddCommMonoid M] (o : (⟨3, ![2, 8, 128]⟩ : Shape).Idx → M)
    (g : Fin 2 → M)
    (hO : ∀ (k : Fin 2) (a : Fin 8) (b : Fin 128),
      o (ix3 k a b) = if a.val = 0 ∧ b.val = 0 then g k else 0) :
    ∑ j, o j = g 0 + g 1 := by
  have key : ∀ k : Fin 2, ∑ a : Fin 8, ∑ b : Fin 128, o (ix3 k a b) = g k := by
    intro k
    have rows : ∀ a : Fin 8, a ≠ 0 → ∑ b : Fin 128, o (ix3 k a b) = 0 := by
      intro a ha
      refine Finset.sum_eq_zero fun b _ => ?_
      rw [hO, if_neg fun h => ha (Fin.ext h.1)]
    have cols : ∀ b : Fin 128, b ≠ 0 → o (ix3 k 0 b) = 0 := by
      intro b hb
      rw [hO, if_neg fun h => hb (Fin.ext h.2)]
    calc ∑ a : Fin 8, ∑ b : Fin 128, o (ix3 k a b)
        = ∑ b : Fin 128, o (ix3 k 0 b) :=
          Finset.sum_eq_single 0 (fun a _ ha => rows a ha) (fun h => absurd (Finset.mem_univ _) h)
      _ = o (ix3 k 0 0) :=
          Finset.sum_eq_single 0 (fun b _ hb => cols b hb) (fun h => absurd (Finset.mem_univ _) h)
      _ = g k := by rw [hO, if_pos ⟨rfl, rfl⟩]
  rw [sum_idx3, Fin.sum_univ_two, key 0, key 1]

end Cert.Bce

end
-- ==== Proof.KernelAccum.lean ====
/-
  What the kernel's accumulator tile holds after each grid point, at the ideal instance.

  The grid has 32 points in two groups of 16. At the first point of a group the body stores a zero tile and
  then adds the point's block sum into entry (0, 0); at every other point it adds the point's block sum into
  entry (0, 0) of what the point before left. So after point n entry (0, 0) holds the running sum of the block
  sums of the group's points up to n, and every other entry holds 0.
-/
import proofs.«155113_j11716670783835_2_alg».proof.Proof.Gen.KernelIdeal.Frame
import proofs.«155113_j11716670783835_2_alg».proof.Proof.KernelPayload
import proofs.«155113_j11716670783835_2_alg».proof.Proof.Accum
import Idealize.ShloMosaic.Lib.Tactic

set_option maxRecDepth 16384

noncomputable section

open Idealize.ShloMosaic Idealize.ShloMosaic.TcCoe Idealize.SL.Sem
open Idealize.ShloMosaic.ValueIdx

namespace Cert.KernelIdeal.BodyValue

open Cert.KernelIdeal Cert.KernelIdeal.Gen Cert.Bce

theorem hz3 : (![0, 0, 0] : Fin 3 → Nat) = fun _ => 0 := funext fun a => by fin_cases a <;> rfl
theorem hz2 : (![0, 0] : Fin 2 → Nat) = fun _ => 0 := funext fun a => by fin_cases a <;> rfl

section AnyInstance
variable {F : FTy → Type} [FloatOps F]

/-- At a point that is not the first of its group the body's one store writes the new tile computed from the two
    input blocks and the tile found. -/
theorem out_B (c : Dev nD) (i : grid0.Coords) (a2 : Memref sig .tc .vmem S4096x256 .f32) (h2 : a2.IsWhole)
    (a3 : Memref sig .tc .vmem S4096x256 .f32) (h3 : a3.IsWhole) (a4 : Memref sig .tc .vmem S1x8x128 .f32) (h4 : a4.IsWhole)
    (hc : ¬cond0_0 i) (x0 x1 : Vec F S4096x256 .f32) (xo : Vec F S1x8x128 .f32) :
    out0_B_2 c i a2 h2 a3 h3 a4 h4 hc x0 x1 xo = k0_pay1 (k0_pay3 x0 x1 xo) := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S4096x256) hz2,
    View.ld_unit_zero (S := S1x8x128) hz3]

/-- At the first point of a group the body first stores the zero tile, reads it back, and its last store writes the
    new tile computed from the two input blocks and that zero tile. -/
theorem out_A (c : Dev nD) (i : grid0.Coords) (a2 : Memref sig .tc .vmem S4096x256 .f32) (h2 : a2.IsWhole)
    (a3 : Memref sig .tc .vmem S4096x256 .f32) (h3 : a3.IsWhole) (a4 : Memref sig .tc .vmem S1x8x128 .f32) (h4 : a4.IsWhole)
    (hc : cond0_0 i) (x0 x1 : Vec F S4096x256 .f32) :
    out0_A_2 c i a2 h2 a3 h3 a4 h4 hc x0 x1 = k0_pay1 (k0_pay3 x0 x1 (k0_pay2 (F := F))) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, View.ld_unit_zero (S := S4096x256) hz2]

end AnyInstance

/-- The stored tile is the computed 8 × 128 tile under a leading unit axis. -/
theorem pay1_apply (v : FVec Ideal S8x128 .f32) (u : Fin 1) (a : Fin 8) (b : Fin 128) :
    k0_pay1 (F := Ideal) v (ix3 u a b) = v (ix2 a b) :=
  shapeCast_ab_1ab_apply v shapeCasts_S8x128_S1x8x128 u a b

/-- The tile stored at the first point of a group is zero everywhere. -/
theorem pay2_apply (u : Fin 1) (a : Fin 8) (b : Fin 128) : k0_pay2 (F := Ideal) (ix3 u a b) = 0 := by
  unfold k0_pay2
  refine (shapeCast_ab_1ab_apply _ shapeCasts_S8x128_S1x8x128 u a b).trans ?_
  exact Ideal.ofBits_zero_f32

/-- First point of a group: the tile ends with the block's sum at (0, 0) and zero elsewhere. -/
theorem caseA_apply (c : Dev nD) (i : grid0.Coords) (a2 : Memref sig .tc .vmem S4096x256 .f32) (h2 : a2.IsWhole)
    (a3 : Memref sig .tc .vmem S4096x256 .f32) (h3 : a3.IsWhole) (a4 : Memref sig .tc .vmem S1x8x128 .f32) (h4 : a4.IsWhole)
    (hc : cond0_0 i) (x0 x1 : Vec Ideal S4096x256 .f32) (u : Fin 1) (a : Fin 8) (b : Fin 128) :
    out0_A_2 (F := Ideal) c i a2 h2 a3 h3 a4 h4 hc x0 x1 (ix3 u a b)
      = if a.val = 0 ∧ b.val = 0 then blockSum x0 x1 else 0 := by
  rw [out_A, pay1_apply, pay3_apply, pay2_apply, zero_add]

/-- Any other point: the tile found, plus the block's sum at (0, 0). -/
theorem caseB_apply (c : Dev nD) (i : grid0.Coords) (a2 : Memref sig .tc .vmem S4096x256 .f32) (h2 : a2.IsWhole)
    (a3 : Memref sig .tc .vmem S4096x256 .f32) (h3 : a3.IsWhole) (a4 : Memref sig .tc .vmem S1x8x128 .f32) (h4 : a4.IsWhole)
    (hc : ¬cond0_0 i) (x0 x1 : Vec Ideal S4096x256 .f32) (xo : Vec Ideal S1x8x128 .f32) (u : Fin 1) (a : Fin 8) (b : Fin 128) :
    out0_B_2 (F := Ideal) c i a2 h2 a3 h3 a4 h4 hc x0 x1 xo (ix3 u a b)
      = xo (ix3 (0 : Fin 1) a b) + (if a.val = 0 ∧ b.val = 0 then blockSum x0 x1 else 0) := by
  rw [out_B, pay1_apply, pay3_apply]

variable (m : (ℓ : Loc nD τ sig) → Buf (Elt Ideal) ℓ)

/-- The sum of the loss terms of the blocks the two input windows show at grid point `n` (zero past the grid). -/
def pointSum (c : Dev nD) (n : ℕ) : EReal :=
  if h : n < cfg0.N then blockSum (iblk m c 0 ⟨n, h⟩) (iblk m c 1 ⟨n, h⟩) else 0

theorem pointSum_of_lt (c : Dev nD) (n : ℕ) (h : n < cfg0.N) :
    pointSum m c n = blockSum (iblk m c 0 ⟨n, h⟩) (iblk m c 1 ⟨n, h⟩) := dif_pos h

/-- After point `n` the accumulator tile holds the group's running sum at (0, 0) and zero elsewhere: by induction
    on the point. -/
theorem outsAt_apply (c : Dev nD) : ∀ (n : ℕ) (h : n < cfg0.N) (u : Fin 1) (a : Fin 8) (b : Fin 128),
    outsAt0 m c n h (ix3 u a b) = if a.val = 0 ∧ b.val = 0 then runSum (pointSum m c) n else 0
  | 0, h, u, a, b => by
    refine (congrFun (outsAt0_A m c ⟨0, h⟩ rfl) (ix3 u a b)).trans ?_
    refine (caseA_apply c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      ((hcond0_0 ⟨0, h⟩).mpr rfl) (iblk m c 0 ⟨0, h⟩) (iblk m c 1 ⟨0, h⟩) u a b).trans ?_
    rw [← pointSum_of_lt m c 0 h]
    rfl
  | n + 1, h, u, a, b => by
    by_cases h0 : (n + 1) % 16 = 0
    · refine (congrFun (outsAt0_A m c ⟨n + 1, h⟩ h0) (ix3 u a b)).trans ?_
      refine (caseA_apply c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) ((hcond0_0 ⟨n + 1, h⟩).mpr h0) (iblk m c 0 ⟨n + 1, h⟩) (iblk m c 1 ⟨n + 1, h⟩) u a b).trans ?_
      rw [← pointSum_of_lt m c (n + 1) h]
      show _ = if _ then (if (n + 1) % 16 = 0 then _ else _) else _
      rw [if_pos h0]
    · refine (congrFun (outsAt0_B m c ⟨n + 1, h⟩ h0) (ix3 u a b)).trans ?_
      refine (caseB_apply c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hh => h0 ((hcond0_0 ⟨n + 1, h⟩).mp hh)) (iblk m c 0 ⟨n + 1, h⟩) (iblk m c 1 ⟨n + 1, h⟩)
        (outsAt0 m c n (Nat.lt_of_succ_lt h)) u a b).trans ?_
      rw [outsAt_apply c n (Nat.lt_of_succ_lt h) 0 a b, ← pointSum_of_lt m c (n + 1) h]
      show _ = if _ then (if (n + 1) % 16 = 0 then _ else _) else _
      rw [if_neg h0]
      by_cases hab : a.val = 0 ∧ b.val = 0
      · rw [if_pos hab, if_pos hab, if_pos hab]
      · rw [if_neg hab, if_neg hab, if_neg hab, add_zero]

end Cert.KernelIdeal.BodyValue

end
-- ==== Proof.KernelFinal.lean ====
/-
  The kernel's result array after the run, and the scalar the host computes from it, at the ideal instance.

  The accumulator tile of group `k` (grid points 16k … 16k + 15) is written back once, after the group's last point,
  as block `k` of the 2 × 8 × 128 result array: so the array ends with the group's sum of block sums at (k, 0, 0) and
  zero elsewhere, and the host's sum over the whole array is the sum of all 32 block sums.
-/
import proofs.«155113_j11716670783835_2_alg».proof.Proof.KernelAccum
import Idealize.ShloMosaic.Lib.StableHlo.Run

set_option maxRecDepth 16384

noncomputable section

open Idealize.ShloMosaic Idealize.ShloMosaic.TcCoe Idealize.SL.Sem
open Idealize.ShloMosaic.ValueIdx

namespace Cert.KernelIdeal.BodyValue

open Cert.KernelIdeal Cert.KernelIdeal.Gen Cert.Bce
open Idealize.ShloMosaic.Pipeline (Dat)

variable (m : (ℓ : Loc nD τ sig) → Buf (Elt Ideal) ℓ) (ρ : Dev nD → PrngReg)

/-- The result array after the run: group `k`'s total at (k, 0, 0), zero elsewhere. -/
def finalArr (c : Dev nD) : S2x8x128.Idx → EReal := fun i =>
  if (i 1).val = 0 ∧ (i 2).val = 0 then runSum (pointSum m c) (16 * (i 0).val + 15) else 0

/-- The output window's block index at grid point `t`: the point's group on the leading axis. -/
theorem idx2 : ∀ t : Fin cfg0.N, win0_2.index t (0 : Fin 3) = t.val / 16 ∧ win0_2.index t (1 : Fin 3) = 0
    ∧ win0_2.index t (2 : Fin 3) = 0 :=
  (by decide +kernel : ∀ t : Fin grid0.N, _)

/-- What a group's last point writes back is the group's block of `finalArr`. -/
theorem flushed_eq (c : Dev nD) (t : Fin cfg0.N) (hf : (cfg0.win 2).flush t = true) :
    (dats m 0 c).flushed 2 t = ((cfg0.win 2).blk t).view.read (Elt Ideal) (finalArr m c) := by
  have h15 : t.val % 16 = 15 := (flush0_2 t).mp hf
  obtain ⟨e0, e1, e2⟩ := idx2 t
  show (cfg0.win 2).cut (grid0.coords t) ((dats m 0 c).after 2 t) = _
  rw [after0_2]
  funext y
  obtain ⟨u, a, b, rfl⟩ : ∃ (u : Fin 1) (a : Fin 8) (b : Fin 128), y = ix3 u a b := ⟨y 0, y 1, y 2, eq_ix3 y⟩
  show outsAt0 m c t.val t.isLt (ix3 u a b) = finalArr m c (((cfg0.win 2).blk t).view.emb (ix3 u a b))
  rw [outsAt_apply m c t.val t.isLt u a b]
  have hu : u.val = 0 := by omega
  have c0 : ((((cfg0.win 2).blk t).view.emb (ix3 u a b)) 0).val = win0_2.index t (0 : Fin 3) * 1 + 1 * u.val := rfl
  have c1 : ((((cfg0.win 2).blk t).view.emb (ix3 u a b)) 1).val = win0_2.index t (1 : Fin 3) * 8 + 1 * a.val := rfl
  have c2 : ((((cfg0.win 2).blk t).view.emb (ix3 u a b)) 2).val = win0_2.index t (2 : Fin 3) * 128 + 1 * b.val := rfl
  unfold finalArr
  rw [c0, c1, c2, e0, e1, e2, hu]
  have hn : 16 * (t.val / 16 * 1 + 1 * 0) + 15 = t.val := by omega
  rw [hn]
  refine if_congr ?_ rfl rfl
  constructor
  · rintro ⟨ha, hb⟩; constructor <;> omega
  · rintro ⟨ha, hb⟩; constructor <;> omega

/-- An index of the result array lies in point `t`'s block iff each coordinate lies in the block's range. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v2).slice (win0_2.rect t)).set ↔ _
  rw [View.set_slice_whole, Rect.mem_set_unit]
  exact Iff.rfl

/-- The two groups' last points cover the result array, so it ends as `finalArr`. -/
theorem final_eq (c : Dev nD) : (dats m 0 c).arrAt 2 cfg0.N = finalArr m c :=
  (dats m 0 c).arrAt_eq_of_cover 2 (finalArr m c) (flushed_eq m c) fun i => by
    have hi0 : (i 0).val < 2 := (i 0).isLt
    have hi1 : (i 1).val < 8 := (i 1).isLt
    have hi2 : (i 2).val < 128 := (i 2).isLt
    have hN : cfg0.N = 32 := N_0
    have hlt : 16 * (i 0).val + 15 < cfg0.N := by omega
    refine ⟨⟨16 * (i 0).val + 15, hlt⟩, (flush0_2 _).mpr (by show (16 * (i 0).val + 15) % 16 = 15; omega), ?_⟩
    rw [mem_blk]
    obtain ⟨e0, e1, e2⟩ := idx2 ⟨16 * (i 0).val + 15, hlt⟩
    have e0' : win0_2.index ⟨16 * (i 0).val + 15, hlt⟩ (0 : Fin 3) = (i 0).val := by rw [e0]; show (16 * (i 0).val + 15) / 16 = _; omega
    intro a
    match a with
    | ⟨0, _⟩ =>
      show win0_2.index ⟨16 * (i 0).val + 15, hlt⟩ (0 : Fin 3) * 1 ≤ (i 0).val
        ∧ (i 0).val < win0_2.index ⟨16 * (i 0).val + 15, hlt⟩ (0 : Fin 3) * 1 + 1
      rw [e0']; omega
    | ⟨1, _⟩ =>
      show win0_2.index ⟨16 * (i 0).val + 15, hlt⟩ (1 : Fin 3) * 8 ≤ (i 1).val
        ∧ (i 1).val < win0_2.index ⟨16 * (i 0).val + 15, hlt⟩ (1 : Fin 3) * 8 + 8
      rw [e1]; omega
    | ⟨2, _⟩ =>
      show win0_2.index ⟨16 * (i 0).val + 15, hlt⟩ (2 : Fin 3) * 128 ≤ (i 2).val
        ∧ (i 2).val < win0_2.index ⟨16 * (i 0).val + 15, hlt⟩ (2 : Fin 3) * 128 + 128
      rw [e2]; omega

/-- The scalar the host computes after the region: its sum over the result array. -/
theorem tail_eq (c : Dev nD) :
    Pipeline.afterTail₀ cfgs (dats m) 0 (V0 m) [hostOps1] c main_v3 = fun _ => ∑ t : Fin 32, pointSum m c t.val := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v2)
      = finalArr m c :=
    (Pipeline.withArrays_arr spec0 launch0.win.arr_inj c _ _ 2).trans (final_eq m c)
  rw [hw]
  funext i
  simp only [Host.reduceAdd, Ideal.hostReduceAdd_def]
  refine (Ideal.hostReduceAdd_total reducesTo_S2x8x128_S_d0_1_2 (fun b => b.elim0) (finalArr m c) _ i).trans ?_
  show Ideal.ofBits .f32 0x00000000#32 + _ = _
  rw [Ideal.ofBits_zero_f32, zero_add,
    sum_tile (finalArr m c) (fun k => runSum (pointSum m c) (16 * k.val + 15)) (fun k a b => rfl)]
  exact runSum_total (pointSum m c)

end Cert.KernelIdeal.BodyValue

end
-- ==== Proof.KernelBlocks.lean ====
import proofs.«155113_j11716670783835_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

/-!
  What the kernel's two input windows read.

  Before the region the program reshapes each 4 × 1 × 128 × 256 × 256 argument to a 131072 × 256 array;
  that reshape is what the region finds at the windows' arrays. Each input window cuts its array into
  32 blocks of 4096 rows: at grid point `(c', i)` of the 2 × 16 grid the index map gives block row
  `16 c' + i`, which is the point's own row-major number `t`. So the block at point `t` is rows
  `4096 t … 4096 t + 4095` of the reshaped argument.
-/

noncomputable section

namespace Cert.KernelIdeal.Blocks

open Cert.KernelIdeal Cert.KernelIdeal.Gen Idealize.ShloMosaic Idealize.ShloMosaic.TcCoe Idealize.SL.Sem
  Idealize.ShloMosaic.ValueIdx

variable {F : FTy → Type} [FloatOps F] (m : (ℓ : Loc nD τ sig) → Buf (Elt F) ℓ)

/-! ## The arrays the region finds -/

/-- The first window's array is the reshape of the first argument as launched. -/
theorem V_main_v0 (c : Dev nD) :
    (V m c main_v0 : S131072x256.Idx → Elt F .f32)
      = shapeCast S131072x256 (m ((c : Thread nD τ).loc main_arg0)) Gen.shapeCasts_S4x1x128x256x256_S131072x256 := by
  show StableHlo.after hostOps0 (fun b => m (c, b)) (Proc.devRef .tc main_v0) = _
  after_results
  rfl

/-- The second window's array is the reshape of the second argument as launched. -/
theorem V_main_v1 (c : Dev nD) :
    (V m c main_v1 : S131072x256.Idx → Elt F .f32)
      = shapeCast S131072x256 (m ((c : Thread nD τ).loc main_arg1)) Gen.shapeCasts_S4x1x128x256x256_S131072x256 := by
  show StableHlo.after hostOps0 (fun b => m (c, b)) (Proc.devRef .tc main_v1) = _
  after_results
  rfl

/-! ## The index maps over the grid -/

/-- Window 0's index map at point `t`: block row `t`, block column 0 (decided over the 32 points). -/
theorem idx0 : ∀ t : Fin cfg0.N, win0_0.index t 0 = t.val ∧ win0_0.index t 1 = 0 :=
  (by decide +kernel : ∀ t : Fin grid0.N, win0_0.index t 0 = t.val ∧ win0_0.index t 1 = 0)

/-- Window 1's index map is the same. -/
theorem idx1 : ∀ t : Fin cfg0.N, win0_1.index t 0 = t.val ∧ win0_1.index t 1 = 0 :=
  (by decide +kernel : ∀ t : Fin grid0.N, win0_1.index t 0 = t.val ∧ win0_1.index t 1 = 0)

/-! ## The blocks -/

/-- Window 0's block at point `t`, at `(r, q)`: the array's entry `(4096 t + r, q)`. -/
theorem iblk0_apply (c : Dev nD) (t : Fin cfg0.N) (r : Fin 4096) (q : Fin 256) :
    iblk m c 0 t (ix2 r q)
      = V m c main_v0 (ix2 (⟨t.val * 4096 + r.val, by
          have := t.isLt; have hN : cfg0.N = 32 := N_0; have := r.isLt; omega⟩ : Fin 131072) q) := by
  unfold iblk
  rw [View.read_apply]
  show V m c main_v0 _ = _
  refine congrArg (V m c main_v0) ?_
  funext a
  apply Fin.ext
  match a with
  | ⟨0, _⟩ => show win0_0.index t 0 * 4096 + 1 * r.val = t.val * 4096 + r.val; rw [(idx0 t).1]; omega
  | ⟨1, _⟩ => show win0_0.index t 1 * 256 + 1 * q.val = q.val; rw [(idx0 t).2]; omega

/-- Window 1's block at point `t`, at `(r, q)`: the array's entry `(4096 t + r, q)`. -/
theorem iblk1_apply (c : Dev nD) (t : Fin cfg0.N) (r : Fin 4096) (q : Fin 256) :
    iblk m c 1 t (ix2 r q)
      = V m c main_v1 (ix2 (⟨t.val * 4096 + r.val, by
          have := t.isLt; have hN : cfg0.N = 32 := N_0; have := r.isLt; omega⟩ : Fin 131072) q) := by
  unfold iblk
  rw [View.read_apply]
  show V m c main_v1 _ = _
  refine congrArg (V m c main_v1) ?_
  funext a
  apply Fin.ext
  match a with
  | ⟨0, _⟩ => show win0_1.index t 0 * 4096 + 1 * r.val = t.val * 4096 + r.val; rw [(idx1 t).1]; omega
  | ⟨1, _⟩ => show win0_1.index t 1 * 256 + 1 * q.val = q.val; rw [(idx1 t).2]; omega

end Cert.KernelIdeal.Blocks

end
-- ==== Proof.SumIndex.lean ====
/-
  Two re-indexings of a finite sum in an additive commutative monoid.

  * The 131072 rows of a `131072 × 256` index set are 32 consecutive blocks of 4096 rows: row
    `a` is `t * 4096 + r` for exactly one pair `t < 32`, `r < 4096` (quotient and remainder by
    4096), so the sum over the index set is the sum over blocks, rows of a block and columns.
  * Recasting an array to a shape with as many elements matches the two index sets one-to-one
    (by row-major position), so a sum of a function of the recast elements over the new index
    set is the sum of that function of the elements over the old one.
-/
import Idealize.ShloMosaic.PureOps
import Idealize.ShloMosaic.Lib.ValueIdx

noncomputable section

open scoped BigOperators

namespace Cert.Bce

open Idealize.ShloMosaic Idealize.ShloMosaic.ValueIdx

/-- A row below 131072 is a block `t < 32` and a row `r < 4096` within it, `t * 4096 + r`:
    quotient and remainder of the division by 4096. -/
def blockEquiv : Fin 32 × Fin 4096 ≃ Fin 131072 where
  toFun x := ⟨x.1.val * 4096 + x.2.val, by have := x.1.isLt; have := x.2.isLt; omega⟩
  invFun a := (⟨a.val / 4096, by have := a.isLt; omega⟩, ⟨a.val % 4096, by omega⟩)
  left_inv x := by
    have h1 := x.1.isLt
    have h2 := x.2.isLt
    refine Prod.ext (Fin.ext ?_) (Fin.ext ?_)
    · show (x.1.val * 4096 + x.2.val) / 4096 = x.1.val
      omega
    · show (x.1.val * 4096 + x.2.val) % 4096 = x.2.val
      omega
  right_inv a := by
    refine Fin.ext ?_
    show a.val / 4096 * 4096 + a.val % 4096 = a.val
    omega

/-- The sum over a `131072 × 256` index set, block by block: 32 blocks of 4096 rows of 256 columns. -/
theorem sum_blocks {M : Type*} [AddCommMonoid M] (f : (⟨2, ![131072, 256]⟩ : Shape).Idx → M) :
    ∑ j, f j = ∑ t : Fin 32, ∑ r : Fin 4096, ∑ q : Fin 256,
      f (ix2 (⟨t.val * 4096 + r.val, by have := t.isLt; have := r.isLt; omega⟩ : Fin 131072) q) := by
  rw [sum_idx2,
    ← Equiv.sum_comp blockEquiv (fun a : Fin 131072 => ∑ q : Fin 256, f (ix2 a q)),
    Fintype.sum_prod_type]
  rfl

/-- A sum over the index set of a recast array is the sum over the original index set: the two
    are matched one-to-one by row-major position. -/
theorem sum_shapeCast {M : Type*} [AddCommMonoid M] {α : Type} {s t : Shape} (h : s.ShapeCasts t)
    (x0 x1 : s.Idx → α) (g : α → α → M) :
    ∑ j : t.Idx, g (shapeCast t x0 h j) (shapeCast t x1 h j) = ∑ i : s.Idx, g (x0 i) (x1 i) :=
  Equiv.sum_comp (Shape.reshapeEquiv h) (fun i => g (x0 i) (x1 i))

end Cert.Bce

end
-- ==== Proof.KernelValue.lean ====
/-
  The kernel's run at the ideal instance, read as a value: its scalar result is the sum, over every voxel of the two
  argument arrays, of the kernel's loss term.

  Grid point `t` shows the body rows 4096·t … 4096·t + 4095 of the two arguments viewed as 131072 × 256 arrays, so the
  32 block sums together are the sum over all rows and lanes of that view, and the view is a re-indexing of the
  five-axis arguments by row-major position.
-/
import proofs.«155113_j11716670783835_2_alg».proof.Proof.KernelFinal
import proofs.«155113_j11716670783835_2_alg».proof.Proof.KernelBlocks
import proofs.«155113_j11716670783835_2_alg».proof.Proof.SumIndex

set_option maxRecDepth 16384

noncomputable section

open Idealize.ShloMosaic Idealize.ShloMosaic.TcCoe Idealize.SL.Sem
open Idealize.ShloMosaic.ValueIdx

namespace Cert.KernelIdeal.BodyValue

open Cert.KernelIdeal Cert.KernelIdeal.Gen Cert.Bce
open Idealize.ShloMosaic.Pipeline (Dat)

variable (m : (ℓ : Loc nD τ sig) → Buf (Elt Ideal) ℓ) (ρ : Dev nD → PrngReg)

/-- The 32 block sums add up to the sum of the loss terms over the argument arrays. -/
theorem total_eq_args (c : Dev nD) :
    ∑ t : Fin 32, pointSum m c t.val
      = ∑ i : S4x1x128x256x256.Idx, lossK (F := Ideal) (m ((c : Thread nD τ).loc main_arg0) i) (m ((c : Thread nD τ).loc main_arg1) i) := by
  have hN : cfg0.N = 32 := N_0
  rw [← sum_shapeCast (M := EReal) Gen.shapeCasts_S4x1x128x256x256_S131072x256 (m ((c : Thread nD τ).loc main_arg0))
    (m ((c : Thread nD τ).loc main_arg1)) (fun p l => lossK (F := Ideal) p l)]
  rw [sum_blocks]
  refine Finset.sum_congr rfl fun t _ => ?_
  have ht : t.val < cfg0.N := by rw [hN]; exact t.isLt
  rw [pointSum_of_lt m c t.val ht]
  unfold blockSum
  refine Finset.sum_congr rfl fun r _ => Finset.sum_congr rfl fun q _ => ?_
  rw [Blocks.iblk0_apply m c ⟨t.val, ht⟩ r q, Blocks.iblk1_apply m c ⟨t.val, ht⟩ r q, Blocks.V_main_v0, Blocks.V_main_v1]

/-- The kernel's scalar result: the sum of the kernel's loss terms over the argument arrays. -/
def result (c : Dev nD) : Buf (Elt Ideal) ((c : Thread nD τ).loc main_v3) := fun _ =>
  ((∑ i : S4x1x128x256x256.Idx, lossK (F := Ideal) (m ((c : Thread nD τ).loc main_arg0) i) (m ((c : Thread nD τ).loc main_arg1) i) : EReal))

/-- Every weakly fair execution of the idealized kernel program terminates with the result buffer at that sum and the
    arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        ((tail_eq m c).trans (funext fun _ => total_eq_args m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.BodyValue

end
-- ==== Proof.RefValue.lean ====
import proofs.«155113_j11716670783835_2_alg».proof.Proof.Gen.ReferenceIdeal.Read
import proofs.«155113_j11716670783835_2_alg».proof.Proof.Loss
import Idealize.ShloMosaic.PureOps.Ideal.Laws

/-!
  What the reference program computes, as one sum. Every operation before the final reduction acts
  elementwise (a broadcast of a rank-0 constant is that constant everywhere), so the array it reduces
  holds, at voxel `j`, the per-voxel term `l * sp (-p) + (1 - l) * sp p` of `p = x0 j`, `l = x1 j`;
  on the extended reals the reduction from the constant `0` is the plain sum of those terms.
-/

noncomputable section

namespace Cert.ReferenceIdeal.RefValue

open Cert.ReferenceIdeal Idealize.ShloMosaic
open scoped BigOperators

/-- The array the reference reduces is, at each voxel, the reference's per-voxel term. -/
theorem v7_apply {F : FTy → Type} [FloatOps F]
    (x0 x1 : (⟨S4x1x128x256x256, .f32⟩ : BufTy).Contents (Elt F)) (j : S4x1x128x256x256.Idx) :
    Read.val_main_v7 (F := F) x0 x1 j = Cert.Bce.lossR (x0 j) (x1 j) := rfl

/-- The reference's result, on the extended reals: `0 + ∑ j, term j = ∑ j, term j`. -/
theorem result_eq (x0 x1 : (⟨S4x1x128x256x256, .f32⟩ : BufTy).Contents (Elt Ideal)) (i : S_.Idx) :
    Read.val_main_v8 (F := Ideal) x0 x1 i
      = ∑ j : S4x1x128x256x256.Idx, Cert.Bce.lossR (F := Ideal) (x0 j) (x1 j) := by
  rw [Read.val_main_v8_apply, Read.val_main_cst_0_apply, Ideal.ofBits_def, Ideal.ofBits_zero_f32, zero_add]
  exact Finset.sum_congr rfl fun j _ => v7_apply x0 x1 j

end Cert.ReferenceIdeal.RefValue

end
-- ==== Proof.LossIdentity.lean ====
/-
  The two spellings of the per-voxel loss agree on the reals.

  With `L p = log (1 + exp (-|p|))` and `sp p = max p 0 + L p`, both programs' `sp` of a real `p`
  is the real number `sp p` (the guard `x ≠ x` is false, `1 + exp (-|p|) > 0`), and since
  `|-p| = |p|` and `max (-p) 0 = max p 0 - p`,
  `l * sp (-p) + (1 - l) * sp p = sp p - l * p`.
-/
import proofs.«155113_j11716670783835_2_alg».proof.Proof.Loss
import Idealize.ShloMosaic.PureOps.Ideal
import Idealize.ShloMosaic.PureOps.Ideal.Laws

noncomputable section

namespace Cert.Bce

open Idealize.ShloMosaic

/-- The word `0x3F800000` denotes the number one. -/
theorem ofBits_one_f32 : Ideal.ofBits .f32 0x3F800000#32 = 1 := by
  simp [Ideal.ofBits, Ideal.ieee, -EReal.coe_mul]; norm_num

/-- The embedding of the reals into the extended reals commutes with `max` (it is monotone). -/
theorem coe_max_ereal (a b : ℝ) : ((max a b : ℝ) : EReal) = max (a : EReal) (b : EReal) :=
  EReal.coe_strictMono.monotone.map_max

/-- The log term at a real `p`: `log1p (exp (-|p|))`, with `|p|` spelled `max p (-p)`, is the real
    number `log (1 + exp (-|p|))`; the argument of the logarithm is positive. -/
theorem logTerm_coe (p : ℝ) :
    Ideal.log1p (Ideal.exp (-(max (p : EReal) (-(p : EReal)))))
      = ((Real.log (1 + Real.exp (-|p|)) : ℝ) : EReal) := by
  have h1 : max (p : EReal) (-(p : EReal)) = ((|p| : ℝ) : EReal) := by
    rw [abs_eq_max_neg, coe_max_ereal, EReal.coe_neg]
  have h2 : ¬ (1 + Real.exp (-|p|) ≤ 0) := by
    have := Real.exp_pos (-|p|); linarith
  rw [h1, ← EReal.coe_neg, Ideal.exp_coe, Ideal.log1p, ← EReal.coe_one, ← EReal.coe_add,
    Ideal.log_coe, if_neg h2]

/-- The kernel's `sp` at a real `p` is the real number `max p 0 + log (1 + exp (-|p|))`. -/
theorem spK_coe (p : ℝ) :
    spK (F := Ideal) ((p : ℝ) : EReal)
      = ((max p 0 + Real.log (1 + Real.exp (-|p|)) : ℝ) : EReal) := by
  unfold spK
  simp only [Ideal.ofBits_def, Ideal.ofBits_zero_f32, Ideal.subf_def, Ideal.addf_def,
    Ideal.maximumf_def, Ideal.exp_def, Ideal.log1p_def, Ideal.cmpf_def, Ideal.absf_def, sub_zero,
    zero_sub, Ideal.cmp, Scalar.select]
  rw [if_neg (by simp), logTerm_coe, ← EReal.coe_zero, ← coe_max_ereal, ← EReal.coe_add]

/-- The reference's `sp` at a real `p` is the same real number. -/
theorem spR_coe (p : ℝ) :
    spR (F := Ideal) ((p : ℝ) : EReal)
      = ((max p 0 + Real.log (1 + Real.exp (-|p|)) : ℝ) : EReal) := by
  unfold spR
  simp only [Ideal.ofBits_def, Ideal.ofBits_zero_f32, Ideal.subf_def, Ideal.addf_def,
    Ideal.maximumf_def, Ideal.hostUnary_exp_def, Ideal.hostUnary_log1p_def, Ideal.hostNegf_def,
    Ideal.hostAbsf_def, Ideal.negf_def, Ideal.cmpf_def, Ideal.absf_def, sub_zero, Ideal.cmp,
    Scalar.select]
  rw [if_neg (by simp), logTerm_coe, ← EReal.coe_zero, ← coe_max_ereal, ← EReal.coe_add]

/-- The kernel's term at real `p`, `l` is the real number `sp p - l * p`. -/
theorem lossK_val (p l : ℝ) :
    lossK (F := Ideal) ((p : ℝ) : EReal) ((l : ℝ) : EReal)
      = ((max p 0 + Real.log (1 + Real.exp (-|p|)) - l * p : ℝ) : EReal) := by
  unfold lossK
  rw [spK_coe, Ideal.subf_def, Ideal.mulf_def, ← EReal.coe_mul, ← EReal.coe_sub]

/-- The reference's term at real `p`, `l` is the real number `l * sp (-p) + (1 - l) * sp p`,
    where `sp (-p) = max (-p) 0 + log (1 + exp (-|p|))` because `|-p| = |p|`. -/
theorem lossR_val (p l : ℝ) :
    lossR (F := Ideal) ((p : ℝ) : EReal) ((l : ℝ) : EReal)
      = ((l * (max (-p) 0 + Real.log (1 + Real.exp (-|p|)))
          + (1 - l) * (max p 0 + Real.log (1 + Real.exp (-|p|))) : ℝ) : EReal) := by
  unfold lossR
  rw [Ideal.hostNegf_def, Ideal.negf_def, ← EReal.coe_neg, spR_coe, spR_coe, abs_neg,
    Ideal.ofBits_def, ofBits_one_f32, Ideal.addf_def, Ideal.mulf_def, Ideal.mulf_def,
    Ideal.subf_def, ← EReal.coe_one, ← EReal.coe_sub, ← EReal.coe_mul, ← EReal.coe_mul,
    ← EReal.coe_add]

/-- The kernel's term at real arguments is a real number. -/
theorem lossK_coe (p l : ℝ) :
    ∃ r : ℝ, lossK (F := Ideal) ((p : ℝ) : EReal) ((l : ℝ) : EReal) = (r : EReal) :=
  ⟨_, lossK_val p l⟩

/-- On the reals the reference's term equals the kernel's:
    `l * sp (-p) + (1 - l) * sp p = sp p - l * p`, by `max (-p) 0 = max p 0 - p`. -/
theorem lossR_eq_lossK (p l : ℝ) :
    lossR (F := Ideal) ((p : ℝ) : EReal) ((l : ℝ) : EReal)
      = lossK (F := Ideal) ((p : ℝ) : EReal) ((l : ℝ) : EReal) := by
  rw [lossR_val, lossK_val]
  congr 1
  rcases le_total 0 p with h | h
  · rw [max_eq_left h, max_eq_right (neg_nonpos.mpr h)]; ring
  · rw [max_eq_right h, max_eq_left (neg_nonneg.mpr h)]; ring

end Cert.Bce

end
-- ==== Proof.Finite.lean ====
import proofs.«155113_j11716670783835_2_alg».proof.Pre_finite_inputs
import Idealize.ShloMosaic.PureOps.Ideal
import Idealize.ShloMosaic.PureOps.Ideal.Laws
import Idealize.ShloMosaic.Lib.ReduceAll
import Idealize.ShloMosaic.Lib.ValueIdx

/-!
  The precondition read back. The printed precondition computes
  `all (|x0| < +∞) ∧ all (|x1| < +∞)` over the extended reals; if it is true then every entry of both
  inputs is a real number (neither `+∞` nor `-∞`, the latter also standing for a NaN).
-/

noncomputable section

namespace Cert.Bce

open Idealize.ShloMosaic
open Cert.Pre_finite_inputs

/-- The rank-0 shape has exactly one index. -/
instance subsingleton_scalar_idx : Subsingleton S_.Idx := ⟨fun a b => funext fun d => d.elim0⟩

/-- The word `0x7F800000` (sign 0, exponent all ones, fraction 0) denotes `+∞`. -/
theorem ofBits_pos_inf : Ideal.ofBits .f32 0x7F800000#32 = (⊤ : EReal) := by
  simp [Ideal.ofBits, Ideal.ieee]

/-- An extended real whose absolute value `max a (-a)` is below `+∞` is a real:
    `a = ⊤` gives `max = ⊤`, and `a = ⊥` gives `-a = ⊤`, so again `max = ⊤`. -/
theorem exists_real_of_abs_lt_top (a : EReal) (h : max a (-a) < ⊤) : ∃ r : ℝ, a = (r : EReal) := by
  induction a using EReal.rec with
  | bot => simp at h
  | coe r => exact ⟨r, rfl⟩
  | top => simp at h

/-- A Boolean read as a one-bit word is the word 1 exactly when it is true. -/
theorem ofBool_eq_one {b : Bool} : BitVec.ofBool b = 1#1 ↔ b = true := by cases b <;> decide

/-- The ordered comparison `<` on extended reals yields the word 1 exactly when `x < y`. -/
theorem cmp_olt_eq_one (x y : EReal) : Ideal.cmp .olt x y = 1#1 ↔ x < y := by
  simp only [Ideal.cmp, ofBool_eq_one, decide_eq_true_eq]

/-- One element of the predicate: if the comparison `|a| < +∞` holds then `a` is a real. -/
theorem exists_real_of_cmp (a : EReal)
    (h : Ideal.cmp .olt (max a (-a)) (Ideal.ofBits .f32 0x7F800000#32) = 1#1) : ∃ r : ℝ, a = (r : EReal) := by
  rw [ofBits_pos_inf] at h
  exact exists_real_of_abs_lt_top a ((cmp_olt_eq_one _ _).1 h)

/-- If the printed precondition is true, every entry of both inputs is a real number. -/
theorem real_of_pre [Facts] (x0 x1 : FVec Ideal S4x1x128x256x256 .f32)
    (h : fn (F := Ideal) x0 x1 = fun _ => 1#1) :
    (∀ i, ∃ r : ℝ, x0 i = ((r : ℝ) : EReal)) ∧ (∀ i, ∃ r : ℝ, x1 i = ((r : ℝ) : EReal)) := by
  -- the result has one index; read the conjunction there
  have h0 := congrFun h ValueIdx.ix0
  dsimp only [fn] at h0
  obtain ⟨ha, hb⟩ := IntOp.andi_eq_one.1 h0
  refine ⟨fun i => ?_, fun i => ?_⟩
  · -- `all` over every axis: each element of the compared array is 1
    have hi := Host.reduce_andi_all _ _ _ _ _ ha i
    exact exists_real_of_cmp (x0 i) hi
  · have hi := Host.reduce_andi_all _ _ _ _ _ hb i
    exact exists_real_of_cmp (x1 i) hi

end Cert.Bce

end
-- ==== Proof.lean ====
/-
  A summed binary cross-entropy with logits, over two f32[4, 1, 128, 256, 256] arrays of logits `p` and labels `l`:
  the kernel against its reference, on the extended reals.

  With `sp x = max x 0 + log (1 + exp (-|x|))` (the stable form of `log (1 + exp x)`), the reference sums
  `l · sp (-p) + (1 - l) · sp p` over every voxel in one reduction. The kernel views both arrays as 131072 × 256,
  walks them in 32 blocks of 4096 rows on a 2 × 16 grid, and per block sums `sp p - l · p` over lanes and then rows
  into entry (0, 0) of an 8 × 128 accumulator tile, one tile per group of 16 blocks; the host then sums the two tiles.

  * The two terms agree at every voxel whose logit and label are real numbers: `sp (-p) = sp p - p` because
    `max (-p) 0 = max p 0 - p` and `|-p| = |p|`, and the common term `log (1 + exp (-|p|))` is a real number, so
    the products distribute (Proof/LossIdentity.lean). The precondition makes every entry real (Proof/Finite.lean).
  * The reference's scalar is the sum of its terms over the five-axis index set (Proof/RefValue.lean, over the
    generated stage-by-stage reading of the reference).
  * The kernel's scalar is the sum of its terms over the same index set: the body's arithmetic at one grid point
    (Proof/KernelPayload.lean), the accumulator tile after each point by induction on the point
    (Proof/KernelAccum.lean), the result array and the host's sum of it (Proof/KernelFinal.lean), the input blocks as
    rows of the reshaped arguments (Proof/KernelBlocks.lean), and the re-indexing of the sums (Proof/SumIndex.lean,
    Proof/Accum.lean), assembled in Proof/KernelValue.lean. Sums on the extended reals commute and associate, so no
    order of summation matters.
  The three frames are the generated frame runs (the reference's is its generated run with the result dropped); the
  idealization rewrote nothing, so `preserves` is trivial.
-/
import proofs.«155113_j11716670783835_2_alg».proof.Defs
import proofs.«155113_j11716670783835_2_alg».proof.Proof.Gen.Kernel
import proofs.«155113_j11716670783835_2_alg».proof.Proof.Gen.Kernel.Frame
import proofs.«155113_j11716670783835_2_alg».proof.Proof.Gen.KernelIdeal
import proofs.«155113_j11716670783835_2_alg».proof.Proof.Gen.KernelIdeal.Frame
import proofs.«155113_j11716670783835_2_alg».proof.Proof.Gen.ReferenceIdeal
import proofs.«155113_j11716670783835_2_alg».proof.Proof.Gen.ReferenceIdeal.Run
import proofs.«155113_j11716670783835_2_alg».proof.Proof.Gen.ReferenceIdeal.Read
import proofs.«155113_j11716670783835_2_alg».proof.Proof.Gen.Pre_finite_inputs
import proofs.«155113_j11716670783835_2_alg».proof.Proof.KernelValue
import proofs.«155113_j11716670783835_2_alg».proof.Proof.RefValue
import proofs.«155113_j11716670783835_2_alg».proof.Proof.LossIdentity
import proofs.«155113_j11716670783835_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both idealized programs end with the same scalar: the kernel's sum
    of `sp p - l · p` and the reference's sum of `l · sp (-p) + (1 - l) · sp p` over the same voxels, equal term by term
    because the precondition makes every logit and label a real number. -/
theorem algebraic : Cert.algebraic_KernelIdeal_ReferenceIdeal := by
  intro m ρ m' ρ' hpre hagree
  refine ⟨fun c => Cert.KernelIdeal.BodyValue.result m c, Cert.KernelIdeal.BodyValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq _ _).trans ?_
  funext i
  rw [Cert.ReferenceIdeal.RefValue.result_eq, (hagree c).1, (hagree c).2]
  obtain ⟨h0, h1⟩ := Cert.Bce.real_of_pre _ _ (hpre c)
  refine Finset.sum_congr rfl fun j _ => ?_
  obtain ⟨p, hp⟩ := h0 j
  obtain ⟨l, hl⟩ := h1 j
  rw [hp, hl]
  exact Cert.Bce.lossR_eq_lossK p l

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
